-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x512 : Shape := ⟨3, ![8, 8192, 512]⟩
abbrev S8x4096x512 : Shape := ⟨3, ![8, 4096, 512]⟩
abbrev S_ : Shape := ⟨0, ![]⟩

class Facts : Prop where
  bcast_S_S8x8192x512 : S_.BroadcastsInDim S8x8192x512 (![] : Fin 0 → Fin S8x8192x512.rank)
  reducesTo_S8x8192x512_S_d0_1_2 : S8x8192x512.ReducesTo [0, 1, 2] S_
  h_S_ : 0 < S_.numel
  bcast_S_S8x4096x512 : S_.BroadcastsInDim S8x4096x512 (![] : Fin 0 → Fin S8x4096x512.rank)
  reducesTo_S8x4096x512_S_d0_1_2 : S8x4096x512.ReducesTo [0, 1, 2] S_

variable [Facts]

def fn {F : FTy → Type} [FloatOps F] (main_arg0 : FVec F S8x8192x512 .f32) (main_arg1 : FVec F S8x4096x512 .f32) : IVec S_ 1 :=
  let main_v0 : FVec F S8x8192x512 .f32 := Host.absf main_arg0
  let main_cst : FVec F S_ .f32 := constant S_ .f32 0x7F800000#32
  let main_v1 : FVec F S8x8192x512 .f32 := broadcastInDim S8x8192x512 ![] bcast_S_S8x8192x512 main_cst
  let main_v2 : IVec S8x8192x512 1 := cmpf .olt main_v0 main_v1
  let main_c : IVec S_ 1 := constantI S_ 1 1#1
  let main_v3 : IVec S_ 1 := (fun x v => Host.reduce IntOp.andi x v reducesTo_S8x8192x512_S_d0_1_2 h_S_) main_v2 main_c
  let main_v4 : FVec F S8x4096x512 .f32 := Host.absf main_arg1
  let main_cst_0 : FVec F S_ .f32 := constant S_ .f32 0x7F800000#32
  let main_v5 : FVec F S8x4096x512 .f32 := broadcastInDim S8x4096x512 ![] bcast_S_S8x4096x512 main_cst_0
  let main_v6 : IVec S8x4096x512 1 := cmpf .olt main_v4 main_v5
  let main_c_1 : IVec S_ 1 := constantI S_ 1 1#1
  let main_v7 : IVec S_ 1 := (fun x v => Host.reduce IntOp.andi x v reducesTo_S8x4096x512_S_d0_1_2 h_S_) main_v6 main_c_1
  let main_v8 : IVec S_ 1 := andi main_v3 main_v7
  main_v8
-- ==== Kernel.lean ====
abbrev S8x8192x512 : Shape := ⟨3, ![8, 8192, 512]⟩
abbrev S8x4096x512 : Shape := ⟨3, ![8, 4096, 512]⟩
abbrev S8x1024x4096 : Shape := ⟨3, ![8, 1024, 4096]⟩
abbrev S1x2048x512 : Shape := ⟨3, ![1, 2048, 512]⟩
abbrev S1x1024x512 : Shape := ⟨3, ![1, 1024, 512]⟩
abbrev S2x1024x1024 : Shape := ⟨3, ![2, 1024, 1024]⟩
abbrev S1024x512 : Shape := ⟨2, ![1024, 512]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8x8192x512, .f32⟩
  | .hbm, ⟨1, _⟩ => ⟨S8x4096x512, .f32⟩
  | .hbm, ⟨2, _⟩ => ⟨S8x8192x512, .bf16⟩
  | .hbm, ⟨3, _⟩ => ⟨S8x4096x512, .bf16⟩
  | .hbm, ⟨4, _⟩ => ⟨S8x1024x4096, .f32⟩
  | .local _ .vmem, ⟨0, _⟩ => ⟨S1x2048x512, .bf16⟩
  | .local _ .vmem, ⟨1, _⟩ => ⟨S1x2048x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S2x1024x1024, .f32⟩
  | .local _ .vmem, ⟨5, _⟩ => ⟨S2x1024x1024, .f32⟩
  | _, _ => ⟨S8x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bitsLt_bf16_f32 : FTy.bits .bf16 < FTy.bits .f32
  inb_S2x1024x1024_S2x1024x1024_0_0_0 : ∀ a, (![0, 0, 0] : Fin 3 → Nat) a + S2x1024x1024.size a ≤ S2x1024x1024.size a
  h_S2x1024x1024 : 0 < S2x1024x1024.numel
  inb_S1x2048x512_S1x1024x512_0_0_0 : ∀ a, (![0, 0, 0] : Fin 3 → Nat) a + S1x1024x512.size a ≤ S1x2048x512.size a
  h_S1x1024x512 : 0 < S1x1024x512.numel
  shapeCasts_S1x1024x512_S1024x512 : S1x1024x512.ShapeCasts S1024x512
  inb_S1x2048x512_S1x1024x512_0_1024_0 : ∀ a, (![0, 1024, 0] : Fin 3 → Nat) a + S1x1024x512.size a ≤ S1x2048x512.size a
  inb_S1x1024x512_S1x1024x512_0_0_0 : ∀ a, (![0, 0, 0] : Fin 3 → Nat) a + S1x1024x512.size a ≤ S1x1024x512.size a
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  inb_S2x1024x1024_S1x1024x1024_1_0_0 : ∀ a, (![1, 0, 0] : Fin 3 → Nat) a + S1x1024x1024.size a ≤ S2x1024x1024.size a
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x8192x512.size a
  hwx0_0 : ∀ i : grid0.Coords, EltTy.bits .bf16 = 32 ∨ (Rect.block (s := S8x8192x512) S1x2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x4096x512.size a
  hwx0_1 : ∀ i : grid0.Coords, EltTy.bits .bf16 = 32 ∨ (Rect.block (s := S8x4096x512) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x1024x1024.size a ≤ S8x1024x4096.size a
  hwx0_2 : ∀ i : grid0.Coords, EltTy.bits .f32 = 32 ∨ (Rect.block (s := S8x1024x4096) S2x1024x1024.size (cc0_transform_2 i) (hinb0_2 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S2x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x512 : Shape := ⟨3, ![8, 8192, 512]⟩
abbrev S8x4096x512 : Shape := ⟨3, ![8, 4096, 512]⟩
abbrev S8x8192x4096 : Shape := ⟨3, ![8, 8192, 4096]⟩
abbrev S8x8x1024x4096 : Shape := ⟨4, ![8, 8, 1024, 4096]⟩
abbrev S_ : Shape := ⟨0, ![]⟩
abbrev S8x1024x4096 : Shape := ⟨3, ![8, 1024, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8x8192x512, .f32⟩
  | .hbm, ⟨1, _⟩ => ⟨S8x4096x512, .f32⟩
  | .hbm, ⟨2, _⟩ => ⟨S8x8192x4096, .f32⟩
  | .hbm, ⟨3, _⟩ => ⟨S8x8x1024x4096, .f32⟩
  | .hbm, ⟨4, _⟩ => ⟨S_, .f32⟩
  | .hbm, ⟨5, _⟩ => ⟨S8x1024x4096, .f32⟩
  | _, _ => ⟨S8x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S8x8192x4096_S8x8x1024x4096 : S8x8192x4096.ShapeCasts S8x8x1024x4096
  reducesTo_S8x8x1024x4096_S8x1024x4096_d0 : S8x8x1024x4096.ReducesTo [0] S8x1024x4096
  h_S_ : 0 < S_.numel
  dot_S8x8192x512_S8x4096x512_S8x8192x4096_2_2_1_1_0_0_wf : DotDims.WF S8x8192x512 S8x4096x512 S8x8192x4096 [2] [2] [1] [1] [0] [0]

variable [Facts₀]

def dot_S8x8192x512_S8x4096x512_S8x8192x4096_2_2_1_1_0_0 : DotDims S8x8192x512 S8x4096x512 S8x8192x4096 where
  lhsContracting := [2]
  rhsContracting := [2]
  lhsNonContracting := [1]
  rhsNonContracting := [1]
  lhsBatch := [0]
  rhsBatch := [0]
  wf := dot_S8x8192x512_S8x4096x512_S8x8192x4096_2_2_1_1_0_0_wf

class Facts : Prop extends Facts₀ where

variable [Facts]
-- ==== Proof.Payload.lean ====
/-
  What one plane store of the body writes, read at one index, over the extended reals.

  The body splits its token block into two planes of 1024 rows. For each plane it loads 1024 token rows `x` and the
  1024 weight rows `w` of the point's column tile, both as `[1, 1024, 512]` pieces, multiplies them on the matrix unit
  into a zero accumulator, adds the plane of the output buffer it read back, and stores the sum. At entry `(0, p, q)`
  of the stored piece that is

      acc[0, p, q] + Σ_{k < 512} x[0, p, k] · w[0, q, k]:

  the casts that drop and add the leading unit axis only rename the index, and the matrix product into zero is the
  plain sum over the one contracted axis (both operands contract their LAST axis: the weights are not transposed).
-/
import proofs.«178823_j68925635166437_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

/-- The body's one contraction: `[1024, 512] × [1024, 512] → [1024, 1024]`, last axis against last axis. -/
abbrev D : DotDims S1024x512 S1024x512 S1024x1024 := dot_S1024x512_S1024x512_S1024x1024_1_1_0_0_n_n

/-- The left operand is read at the result's row … -/
theorem lhs_row (i : S1024x1024.Idx) (q : D.contr.Idx) : (D.lhsIdx i q 0).val = (i 0).val := by
  unfold DotDims.lhsIdx
  rw [dif_neg (show ¬(0 : Fin S1024x512.rank) ∈ D.lhsBatch by decide),
    dif_pos (show (0 : Fin S1024x512.rank) ∈ D.lhsNonContracting by decide)]
  rfl
/-- … and at the contracted position; -/
theorem lhs_k (i : S1024x1024.Idx) (q : D.contr.Idx) : (D.lhsIdx i q 1).val = (q ⟨0, by decide⟩).val :=
  D.lhsIdx_val_of_single rfl i q
/-- the right operand at the result's COLUMN … -/
theorem rhs_row (i : S1024x1024.Idx) (q : D.contr.Idx) : (D.rhsIdx i q 0).val = (i 1).val := by
  unfold DotDims.rhsIdx
  rw [dif_neg (show ¬(0 : Fin S1024x512.rank) ∈ D.rhsBatch by decide),
    dif_pos (show (0 : Fin S1024x512.rank) ∈ D.rhsNonContracting by decide)]
  rfl
/-- … and at the contracted position. -/
theorem rhs_k (i : S1024x1024.Idx) (q : D.contr.Idx) : (D.rhsIdx i q 1).val = (q ⟨0, by decide⟩).val :=
  D.rhsIdx_val_of_single rfl i q

/-- The matrix product into a zero accumulator at `(p, q)`: `Σ_k l[p, k] · r[q, k]`. -/
theorem matmul_zero_apply (l r : FVec Ideal S1024x512 .bf16) (p q : Fin 1024) :
    matmul (F := Ideal) D none l r (constant (F := Ideal) S1024x1024 .f32 0x00000000#32) (ix2 p q)
      = ∑ k : Fin 512, l (ix2 p k) * r (ix2 q k) := by
  simp only [matmul]
  rw [Ideal.matmul_constant_zero_apply, ← Equiv.sum_comp (contrEquiv1 D 512 rfl rfl).symm]
  refine Finset.sum_congr rfl fun k _ => ?_
  have hk := contrEquiv1_symm_val D 512 rfl rfl k
  have el : D.lhsIdx (ix2 p q) ((contrEquiv1 D 512 rfl rfl).symm k) = ix2 p k := funext fun a => Fin.ext (by
    match a with
    | ⟨0, _⟩ => exact lhs_row _ _
    | ⟨1, _⟩ => exact (lhs_k _ _).trans hk)
  have er : D.rhsIdx (ix2 p q) ((contrEquiv1 D 512 rfl rfl).symm k) = ix2 q k := funext fun a => Fin.ext (by
    match a with
    | ⟨0, _⟩ => exact rhs_row _ _
    | ⟨1, _⟩ => exact (rhs_k _ _).trans hk)
  rw [el, er]

/-- Dropping the leading unit axis of a `[1, 1024, n]` piece reads `(p, k)` at `(0, p, k)`. -/
theorem drop_unit {n : Nat} {α : Type} (v : (⟨3, ![1, 1024, n]⟩ : Shape).Idx → α)
    (h : (⟨3, ![1, 1024, n]⟩ : Shape).ShapeCasts ⟨2, ![1024, n]⟩) (p : Fin 1024) (k : Fin n) :
    shapeCast (⟨2, ![1024, n]⟩ : Shape) v h (ix2 p k) = v (ix3 (0 : Fin 1) p k) := by
  refine (shapeCast_dropUnit_apply ![1024, n] v h (ix2 p k)).trans (congrArg v ?_)
  funext a
  match a with
  | ⟨0, _⟩ => rfl
  | ⟨1, _⟩ => rfl
  | ⟨2, _⟩ => rfl

/-- Adding a leading unit axis to a `[1024, 1024]` value reads `(0, p, q)` at `(p, q)`. -/
theorem add_unit {α : Type} (v : (⟨2, ![1024, 1024]⟩ : Shape).Idx → α)
    (h : (⟨2, ![1024, 1024]⟩ : Shape).ShapeCasts ⟨3, ![1, 1024, 1024]⟩) (p q : Fin 1024) :
    shapeCast (⟨3, ![1, 1024, 1024]⟩ : Shape) v h (ix3 (0 : Fin 1) p q) = v (ix2 p q) := by
  refine (shapeCast_addUnit_apply ![1024, 1024] v h (ix3 (0 : Fin 1) p q)).trans (congrArg v ?_)
  funext a
  match a with
  | ⟨0, _⟩ => rfl
  | ⟨1, _⟩ => rfl

/-- THE FIRST PLANE'S STORE at `(0, p, q)`: the buffer's plane read back plus the dot product of token row `p` with
    weight row `q`. -/
theorem pay2_apply (x w : FVec Ideal S1x1024x512 .bf16) (acc : FVec Ideal S1x1024x1024 .f32) (p q : Fin 1024) :
    k0_pay2 (F := Ideal) x w acc (ix3 (0 : Fin 1) p q)
      = acc (ix3 (0 : Fin 1) p q) + ∑ k : Fin 512, x (ix3 (0 : Fin 1) p k) * w (ix3 (0 : Fin 1) q k) := by
  unfold k0_pay2
  refine (add_unit _ _ p q).trans ?_
  refine (addf_apply _ _ _).trans ?_
  refine congrArg₂ (· + ·) (drop_unit acc _ p q) ?_
  refine (matmul_zero_apply _ _ p q).trans ?_
  refine Finset.sum_congr rfl fun k _ => ?_
  exact congrArg₂ (· * ·) (drop_unit x _ p k) (drop_unit w _ q k)

/-- THE SECOND PLANE'S STORE is the same function of its own loads. -/
theorem pay3_apply (x w : FVec Ideal S1x1024x512 .bf16) (acc : FVec Ideal S1x1024x1024 .f32) (p q : Fin 1024) :
    k0_pay3 (F := Ideal) x w acc (ix3 (0 : Fin 1) p q)
      = acc (ix3 (0 : Fin 1) p q) + ∑ k : Fin 512, x (ix3 (0 : Fin 1) p k) * w (ix3 (0 : Fin 1) q k) :=
  pay2_apply x w acc p q

end Cert.KernelIdeal.Pay

end
-- ==== Proof.LibCanonUnit.lean ====
/-
  Reading, at one index, the contents a list of stores leaves when the NEWEST store went through a unit-stride
  rectangle `[off, off + size)`: an index inside the rectangle reads that store's payload at the index minus the
  offsets; an index that misses the rectangle on some axis reads what the earlier stores left. Two general lemmas over
  `View.canon` (the contents as a function of the pieces alone), for any shape, element type and value family.
-/
import Idealize.ShloMosaic.Lib.Pipeline.Value

noncomputable section

namespace Idealize.ShloMosaic.View

variable {Val : EltTy → Type} {S : Shape} {e : EltTy}

/-- An index `y` at position `x` of the newest piece's unit-stride rectangle (`y a = off a + x a` on every axis)
    reads that piece's payload at `x`, whatever the earlier pieces are. -/
theorem canon_cons_unit_of_mem [∀ e, Nonempty (Val e)] {off size : Fin S.rank → Nat}
    (inb : ∀ a, off a + size a ≤ S.size a) (w : (Rect.unit off size inb).shape.Idx → Val e)
    (L : List (Piece Val S e)) (y : S.Idx) (x : (Rect.unit off size inb).shape.Idx)
    (hx : ∀ a, (y a).val = off a + (x a).val) :
    View.canon ((⟨Rect.unit off size inb, w⟩ : Piece Val S e) :: L) y = w x := by
  have hy : (Rect.unit off size inb).emb x = y := funext fun a => Fin.ext (by
    show off a + 1 * (x a).val = (y a).val
    rw [hx a, Nat.one_mul])
  rw [← hy]
  exact View.canon_cons_emb (Rect.unit off size inb) w L x

/-- An index that misses the newest piece's unit-stride rectangle on axis `a` reads what the earlier pieces left. -/
theorem canon_cons_unit_of_not_mem [∀ e, Nonempty (Val e)] {off size : Fin S.rank → Nat}
    (inb : ∀ a, off a + size a ≤ S.size a) (w : (Rect.unit off size inb).shape.Idx → Val e)
    (L : List (Piece Val S e)) (y : S.Idx) (a : Fin S.rank)
    (ha : (y a).val < off a ∨ off a + size a ≤ (y a).val) :
    View.canon ((⟨Rect.unit off size inb, w⟩ : Piece Val S e) :: L) y = View.canon L y :=
  View.canon_cons_of_not_mem _ L (fun h => by
    have h' : y ∈ (Rect.unit off size inb).set := h
    have := (Rect.mem_set_unit.mp h') a
    omega)

end Idealize.ShloMosaic.View

end
-- ==== Proof.Cases.lean ====
/-
  What one run of the body leaves in the output's staging buffer, entry by entry.

  The buffer is a `[2, 1024, 1024]` block: plane `e` belongs to destination `2·dst2 + e`. The token block `x` is
  `[1, 2048, 512]` — plane `e`'s rows are `e·1024 + p` — and the weight block `w` is `[1, 1024, 512]`. The body makes
  two plane stores, plane 0 then plane 1, each `plane read back + rows · weightsᵀ`; on a source-0 point it first
  fills the whole block with zero.

    later source (no zero fill):  entry (e, p, q) ends at  old[e, p, q] + Σ_k x[0, e·1024 + p, k] · w[0, q, k]
    source 0 (zero fill first):   entry (e, p, q) ends at            Σ_k x[0, e·1024 + p, k] · w[0, q, k]

  Plane 1's read-back happens after plane 0's store, but that store misses plane 1, so it still reads the old
  contents (the zero, on a source-0 point).
-/
import proofs.«178823_j68925635166437_2_alg».proof.Proof.Gen.KernelIdeal.Frame
import proofs.«178823_j68925635166437_2_alg».proof.Proof.Payload
import proofs.«178823_j68925635166437_2_alg».proof.Proof.LibCanonUnit
import Idealize.ShloMosaic.Lib.Tactic

noncomputable section

namespace Cert.KernelIdeal.Cases

open Cert.KernelIdeal Cert.KernelIdeal.Gen Idealize.ShloMosaic Idealize.ShloMosaic.ValueIdx
open Idealize.ShloMosaic.TcCoe Idealize.SL.Sem

/-- Row `e·1024 + p` of the 2048-row token block: row `p` of plane `e`. -/
abbrev trow (e : Fin 2) (p : Fin 1024) : Fin 2048 := ⟨e.val * 1024 + p.val, by omega⟩

theorem hz3 : (![0, 0, 0] : Fin 3 → Nat) = fun _ => 0 := funext fun a => by fin_cases a <;> rfl

/-- The zero fill is zero at every entry. -/
theorem pay1_apply (y : S2x1024x1024.Idx) : k0_pay1 (F := Ideal) y = 0 := by
  unfold k0_pay1
  show Ideal.ofBits .f32 0x00000000#32 = 0
  exact Ideal.ofBits_zero_f32

/-- A LATER SOURCE's run: entry `(e, p, q)` of the buffer, which held `old`, ends at
    `old[e, p, q] + Σ_k x[0, e·1024 + p, k] · w[0, q, k]`. -/
theorem out_B_apply (c : Dev nD) (i : grid0.Coords) (a3 : Memref sig .tc .vmem S1x2048x512 .bf16) (h3 : a3.IsWhole)
    (a4 : Memref sig .tc .vmem S1x1024x512 .bf16) (h4 : a4.IsWhole) (a5 : Memref sig .tc .vmem S2x1024x1024 .f32)
    (h5 : a5.IsWhole) (hc : ¬cond0_0 i) (x : Vec Ideal S1x2048x512 .bf16) (w : Vec Ideal S1x1024x512 .bf16)
    (old : Vec Ideal S2x1024x1024 .f32) (e : Fin 2) (p q : Fin 1024) :
    out0_B_2 (F := Ideal) c i a3 h3 a4 h4 a5 h5 hc x w old (ix3 e p q)
      = old (ix3 e p q) + ∑ k : Fin 512, x (ix3 (0 : Fin 1) (trow e p) k) * w (ix3 (0 : Fin 1) q k) := by
  unfold out0_B_2
  rw [View.read_writes_eq_canon _ _ _ (cover0_B_2 c i a3 h3 a4 h4 a5 h5 hc x w old)]
  unfold kernelRun0_B
  dsimp only
  sl_unfold_words
  simp only [View.readAt_eq_ld, h3.read_unread, h4.read_unread, h5.read_unread]
  match e with
  | ⟨0, _⟩ =>
    refine (View.canon_cons_unit_of_not_mem _ _ _ _ 0 (Or.inl Nat.one_pos)).trans ?_
    refine (View.canon_cons_unit_of_mem _ _ _ _ (ix3 (0 : Fin 1) p q) (fun a => by
      match a with
      | ⟨0, _⟩ => rfl
      | ⟨1, _⟩ => exact (Nat.zero_add _).symm
      | ⟨2, _⟩ => exact (Nat.zero_add _).symm)).trans ?_
    refine (Pay.pay2_apply _ _ _ p q).trans ?_
    refine congrArg₂ (· + ·) (congrArg old ?_) (Finset.sum_congr rfl fun k _ =>
      congrArg₂ (· * ·) (congrArg x ?_) (congrArg w ?_))
    all_goals
      funext a
      apply Fin.ext
      match a with
      | ⟨0, _⟩ => rfl
      | ⟨1, _⟩ => first | (show 0 + 1 * p.val = p.val; omega) | (show 0 + 1 * p.val = 0 * 1024 + p.val; omega) | (show 0 + 1 * q.val = q.val; omega)
      | ⟨2, _⟩ => first | (show 0 + 1 * q.val = q.val; omega) | (show 0 + 1 * k.val = k.val; omega)
  | ⟨1, _⟩ =>
    refine (View.canon_cons_unit_of_mem _ _ _ _ (ix3 (0 : Fin 1) p q) (fun a => by
      match a with
      | ⟨0, _⟩ => rfl
      | ⟨1, _⟩ => exact (Nat.zero_add _).symm
      | ⟨2, _⟩ => exact (Nat.zero_add _).symm)).trans ?_
    refine (Pay.pay3_apply _ _ _ p q).trans ?_
    refine congrArg₂ (· + ·) (congrArg old ?_) (Finset.sum_congr rfl fun k _ =>
      congrArg₂ (· * ·) (congrArg x ?_) (congrArg w ?_))
    all_goals
      funext a
      apply Fin.ext
      match a with
      | ⟨0, _⟩ => rfl
      | ⟨1, _⟩ => first | (show 0 + 1 * p.val = p.val; omega) | (show 1024 + 1 * p.val = 1 * 1024 + p.val; omega) | (show 0 + 1 * q.val = q.val; omega)
      | ⟨2, _⟩ => first | (show 0 + 1 * q.val = q.val; omega) | (show 0 + 1 * k.val = k.val; omega)

/-- What a read-back of plane 0 sees right after the zero fill: zero. -/
theorem readback0 (a5 : Memref sig .tc .vmem S2x1024x1024 .f32) (p q : Fin 1024) :
    a5.view.readCov (Val := Elt Ideal)
        [⟨Rect.unit (s := S2x1024x1024) ![0, 0, 0] S2x1024x1024.size inb_S2x1024x1024_S2x1024x1024_0_0_0, k0_pay1 (F := Ideal)⟩]
        (Rect.unit (s := S2x1024x1024) ![0, 0, 0] S1x1024x1024.size inb_S2x1024x1024_S1x1024x1024_0_0_0).toLoadRect (ix3 (0 : Fin 1) p q) = 0 := by
  refine (congrFun (View.readCov_eq_canon' _ _ _) _).trans ?_
  refine (congrFun (View.canon_unit_zero hz3 _ _) _).trans ?_
  exact pay1_apply _

/-- What a read-back of plane 1 sees after the zero fill and plane 0's store (which misses plane 1): zero. -/
theorem readback1 (a5 : Memref sig .tc .vmem S2x1024x1024 .f32) (w0 : S1x1024x1024.Idx → Ideal .f32) (p q : Fin 1024) :
    a5.view.readCov (Val := Elt Ideal)
        [⟨Rect.unit (s := S2x1024x1024) ![0, 0, 0] S1x1024x1024.size inb_S2x1024x1024_S1x1024x1024_0_0_0, w0⟩,
          ⟨Rect.unit (s := S2x1024x1024) ![0, 0, 0] S2x1024x1024.size inb_S2x1024x1024_S2x1024x1024_0_0_0, k0_pay1 (F := Ideal)⟩]
        (Rect.unit (s := S2x1024x1024) ![1, 0, 0] S1x1024x1024.size inb_S2x1024x1024_S1x1024x1024_1_0_0).toLoadRect (ix3 (0 : Fin 1) p q) = 0 := by
  refine (congrFun (View.readCov_eq_canon' _ _ _) _).trans ?_
  refine (View.canon_cons_unit_of_not_mem _ _ _ _ 0 (Or.inr (by show 0 + 1 ≤ 1 + 1 * 0; omega))).trans ?_
  refine (congrFun (View.canon_unit_zero hz3 _ _) _).trans ?_
  exact pay1_apply _

/-- A SOURCE-0 run: entry `(e, p, q)` ends at `Σ_k x[0, e·1024 + p, k] · w[0, q, k]`, whatever the buffer held. -/
theorem out_A_apply (c : Dev nD) (i : grid0.Coords) (a3 : Memref sig .tc .vmem S1x2048x512 .bf16) (h3 : a3.IsWhole)
    (a4 : Memref sig .tc .vmem S1x1024x512 .bf16) (h4 : a4.IsWhole) (a5 : Memref sig .tc .vmem S2x1024x1024 .f32)
    (h5 : a5.IsWhole) (hc : cond0_0 i) (x : Vec Ideal S1x2048x512 .bf16) (w : Vec Ideal S1x1024x512 .bf16)
    (e : Fin 2) (p q : Fin 1024) :
    out0_A_2 (F := Ideal) c i a3 h3 a4 h4 a5 h5 hc x w (ix3 e p q)
      = ∑ k : Fin 512, x (ix3 (0 : Fin 1) (trow e p) k) * w (ix3 (0 : Fin 1) q k) := by
  unfold out0_A_2
  rw [View.read_writes_eq_canon _ _ _ (cover0_A_2 c i a3 h3 a4 h4 a5 h5 hc x w)]
  unfold kernelRun0_A
  dsimp only
  sl_unfold_words
  simp only [View.readAt_eq_ld, h3.read_unread, h4.read_unread]
  match e with
  | ⟨0, _⟩ =>
    refine (View.canon_cons_unit_of_not_mem _ _ _ _ 0 (Or.inl Nat.one_pos)).trans ?_
    refine (View.canon_cons_unit_of_mem _ _ _ _ (ix3 (0 : Fin 1) p q) (fun a => by
      match a with
      | ⟨0, _⟩ => rfl
      | ⟨1, _⟩ => exact (Nat.zero_add _).symm
      | ⟨2, _⟩ => exact (Nat.zero_add _).symm)).trans ?_
    refine (Pay.pay2_apply _ _ _ p q).trans ?_
    refine (congrArg₂ (· + ·) (readback0 a5 p q) (Finset.sum_congr rfl fun k _ =>
      congrArg₂ (· * ·) (congrArg x ?_) (congrArg w ?_))).trans (zero_add _)
    all_goals
      funext a
      apply Fin.ext
      match a with
      | ⟨0, _⟩ => rfl
      | ⟨1, _⟩ => first | (show 0 + 1 * p.val = 0 * 1024 + p.val; omega) | (show 0 + 1 * q.val = q.val; omega)
      | ⟨2, _⟩ => (show 0 + 1 * k.val = k.val; omega)
  | ⟨1, _⟩ =>
    refine (View.canon_cons_unit_of_mem _ _ _ _ (ix3 (0 : Fin 1) p q) (fun a => by
      match a with
      | ⟨0, _⟩ => rfl
      | ⟨1, _⟩ => exact (Nat.zero_add _).symm
      | ⟨2, _⟩ => exact (Nat.zero_add _).symm)).trans ?_
    refine (Pay.pay3_apply _ _ _ p q).trans ?_
    refine (congrArg₂ (· + ·) (readback1 a5 _ p q) (Finset.sum_congr rfl fun k _ =>
      congrArg₂ (· * ·) (congrArg x ?_) (congrArg w ?_))).trans (zero_add _)
    all_goals
      funext a
      apply Fin.ext
      match a with
      | ⟨0, _⟩ => rfl
      | ⟨1, _⟩ => first | (show 1024 + 1 * p.val = 1 * 1024 + p.val; omega) | (show 0 + 1 * q.val = q.val; omega)
      | ⟨2, _⟩ => (show 0 + 1 * k.val = k.val; omega)

end Cert.KernelIdeal.Cases

end
-- ==== Proof.Spec.lean ====
/-
  The function both programs compute.

  The inputs are `a : [8, 8192, 512]` and `b : [8, 4096, 512]`: eight source shards of a token matrix and of a
  weight matrix, each holding a 512-wide slice of the contracted axis. The result is `out : [8, 1024, 4096]`,

      out[d, r, j] = Σ_{s < 8} Σ_{k < 512} a[s, d·1024 + r, k] · b[s, j, k],

  the product of the token rows owned by destination `d` with the weights, summed over the sources. Sums of extended
  reals are taken in `EReal`'s commutative monoid, so no grouping or order is part of the statement.

  Arrays are read here at NATURAL-NUMBER coordinates (`rd3`, zero off the array): every index identity the proofs
  need is then linear arithmetic on naturals.
-/
import Idealize.ShloMosaic.PureOps.Ideal
import Idealize.ShloMosaic.Lib.ValueIdx

noncomputable section

namespace Cert.GemmSpec

open Idealize.ShloMosaic Idealize.ShloMosaic.ValueIdx

/-- A rank-3 array of extended reals read at natural-number coordinates: its entry where the three coordinates
    are in range, zero elsewhere. -/
def rd3 {n0 n1 n2 : Nat} (X : (⟨3, ![n0, n1, n2]⟩ : Shape).Idx → EReal) (p q r : Nat) : EReal :=
  if h : p < n0 ∧ q < n1 ∧ r < n2 then X (ix3 ⟨p, h.1⟩ ⟨q, h.2.1⟩ ⟨r, h.2.2⟩) else 0

/-- An entry of the array is `rd3` at the values of its index's coordinates. -/
theorem rd3_of_val {n0 n1 n2 : Nat} (X : (⟨3, ![n0, n1, n2]⟩ : Shape).Idx → EReal)
    (i : (⟨3, ![n0, n1, n2]⟩ : Shape).Idx) {p q r : Nat}
    (h0 : (i 0).val = p) (h1 : (i 1).val = q) (h2 : (i 2).val = r) : X i = rd3 X p q r := by
  subst h0 h1 h2
  unfold rd3
  rw [dif_pos ⟨(i 0).isLt, (i 1).isLt, (i 2).isLt⟩]
  exact congrArg X (eq_ix3 i)

/-- One source's contribution to `out[·, row, col]`: the dot product, over the 512 contracted positions, of token row
    `row` of source `s` with weight row `col` of source `s`. -/
def term (a : (⟨3, ![8, 8192, 512]⟩ : Shape).Idx → EReal) (b : (⟨3, ![8, 4096, 512]⟩ : Shape).Idx → EReal)
    (s row col : Nat) : EReal :=
  ∑ k : Fin 512, rd3 a s row k.val * rd3 b s col k.val

/-- THE RESULT: `out[d, r, j] = Σ_s Σ_k a[s, d·1024 + r, k] · b[s, j, k]`. -/
def G (a : (⟨3, ![8, 8192, 512]⟩ : Shape).Idx → EReal) (b : (⟨3, ![8, 4096, 512]⟩ : Shape).Idx → EReal) :
    (⟨3, ![8, 1024, 4096]⟩ : Shape).Idx → EReal :=
  fun i => ∑ s : Fin 8, term a b s.val ((i 0).val * 1024 + (i 1).val) (i 2).val

end Cert.GemmSpec

end
-- ==== Proof.Blocks.lean ====
/-
  Where each window's block sits, and what the two input blocks hold.

  The grid is `(dst2, n, src)` of extents `(4, 4, 8)`, source innermost: point `t` has `src = t % 8`, `n = t / 8 % 4`,
  `dst2 = t / 32`. Its blocks are

      tokens   a[src, dst2·2048 … +2048, :]      block index (t % 8,  t / 32,     0)
      weights  b[src, n·1024    … +1024, :]      block index (t % 8,  t / 8 % 4,  0)
      output   out[2·dst2 … +2, :, n·1024 … +1024]   block index (t / 32, 0,      t / 8 % 4)

  The region reads bf16 copies of the arguments that the host made before it; over the extended reals a change of
  float format is the identity, so those copies ARE the arguments. Hence entry `(0, r, k)` of the token block at `t` is
  `a[t % 8, (t / 32)·2048 + r, k]`, and entry `(0, j, k)` of the weight block is `b[t % 8, (t / 8 % 4)·1024 + j, k]`.
-/
import proofs.«178823_j68925635166437_2_alg».proof.Proof.Gen.KernelIdeal.Frame
import proofs.«178823_j68925635166437_2_alg».proof.Proof.Spec
import Idealize.ShloMosaic.Lib.Pipeline.Value
import Idealize.ShloMosaic.Lib.StableHlo.Run

noncomputable section

namespace Cert.KernelIdeal.Blocks

open Cert.KernelIdeal Cert.KernelIdeal.Gen Cert.GemmSpec Idealize.ShloMosaic Idealize.ShloMosaic.ValueIdx
open Idealize.ShloMosaic.TcCoe Idealize.SL.Sem

variable (m : (ℓ : Loc nD τ sig) → Buf (Elt Ideal) ℓ)

/-- The token argument on core `c`, as launched. -/
abbrev argA (c : Dev nD) : S8x8192x512.Idx → EReal := m ((c : Thread nD τ).loc main_arg0)
/-- The weight argument on core `c`, as launched. -/
abbrev argB (c : Dev nD) : S8x4096x512.Idx → EReal := m ((c : Thread nD τ).loc main_arg1)

/-- The token block the body finds at point `t`: `[1, 2048, 512]`. -/
abbrev tokBlk (c : Dev nD) (t : Fin cfg0.N) : S1x2048x512.Idx → EReal := iblk m c 0 t
/-- The weight block the body finds at point `t`: `[1, 1024, 512]`. -/
abbrev wBlk (c : Dev nD) (t : Fin cfg0.N) : S1x1024x512.Idx → EReal := iblk m c 1 t

/-- The block indices as functions of the point, decided over the 128 points of the grid. -/
theorem idx_facts : ∀ t : Fin cfg0.N,
    win0_0.index t (0 : Fin 3) = t.val % 8 ∧ win0_0.index t (1 : Fin 3) = t.val / 32 ∧ win0_0.index t (2 : Fin 3) = 0
    ∧ win0_1.index t (0 : Fin 3) = t.val % 8 ∧ win0_1.index t (1 : Fin 3) = t.val / 8 % 4 ∧ win0_1.index t (2 : Fin 3) = 0
    ∧ win0_2.index t (0 : Fin 3) = t.val / 32 ∧ win0_2.index t (1 : Fin 3) = 0 ∧ win0_2.index t (2 : Fin 3) = t.val / 8 % 4 :=
  (by decide +kernel : ∀ t : Fin grid0.N, _)

/-- The bf16 copy of the tokens that the region reads is the token argument, entry by entry. -/
theorem V_tokens (c : Dev nD) (i : S8x8192x512.Idx) : (V m c main_v0 : S8x8192x512.Idx → EReal) i = argA m c i := by
  have e : (V m c main_v0 : S8x8192x512.Idx → EReal) = argA m c := by
    dsimp only [V, hostOps0]; after_results; rfl
  exact congrFun e i

/-- The bf16 copy of the weights that the region reads is the weight argument, entry by entry. -/
theorem V_weights (c : Dev nD) (i : S8x4096x512.Idx) : (V m c main_v1 : S8x4096x512.Idx → EReal) i = argB m c i := by
  have e : (V m c main_v1 : S8x4096x512.Idx → EReal) = argB m c := by
    dsimp only [V, hostOps0]; after_results; rfl
  exact congrFun e i

/-- THE TOKEN BLOCK at point `t`: entry `(0, r, k)` is `a[t % 8, (t / 32)·2048 + r, k]`. -/
theorem tokens_apply (c : Dev nD) (t : Fin cfg0.N) (r : Fin 2048) (k : Fin 512) :
    tokBlk m c t (ix3 (0 : Fin 1) r k)
      = rd3 (argA m c) (t.val % 8) (t.val / 32 * 2048 + r.val) k.val := by
  obtain ⟨e0, e1, e2, -⟩ := idx_facts t
  have hb : tokBlk m c t (ix3 (0 : Fin 1) r k)
      = (V m c main_v0 : S8x8192x512.Idx → EReal) (((cfg0.win 0).blk t).view.emb (ix3 (0 : Fin 1) r k)) := rfl
  refine hb.trans ((V_tokens m c _).trans (rd3_of_val _ _ ?_ ?_ ?_))
  · show win0_0.index t (0 : Fin 3) * 1 + 1 * 0 = t.val % 8; omega
  · show win0_0.index t (1 : Fin 3) * 2048 + 1 * r.val = t.val / 32 * 2048 + r.val; omega
  · show win0_0.index t (2 : Fin 3) * 512 + 1 * k.val = k.val; omega

/-- THE WEIGHT BLOCK at point `t`: entry `(0, j, k)` is `b[t % 8, (t / 8 % 4)·1024 + j, k]`. -/
theorem weights_apply (c : Dev nD) (t : Fin cfg0.N) (j : Fin 1024) (k : Fin 512) :
    wBlk m c t (ix3 (0 : Fin 1) j k)
      = rd3 (argB m c) (t.val % 8) (t.val / 8 % 4 * 1024 + j.val) k.val := by
  obtain ⟨-, -, -, e0, e1, e2, -⟩ := idx_facts t
  have hb : wBlk m c t (ix3 (0 : Fin 1) j k)
      = (V m c main_v1 : S8x4096x512.Idx → EReal) (((cfg0.win 1).blk t).view.emb (ix3 (0 : Fin 1) j k)) := rfl
  refine hb.trans ((V_weights m c _).trans (rd3_of_val _ _ ?_ ?_ ?_))
  · show win0_1.index t (0 : Fin 3) * 1 + 1 * 0 = t.val % 8; omega
  · show win0_1.index t (1 : Fin 3) * 1024 + 1 * j.val = t.val / 8 % 4 * 1024 + j.val; omega
  · show win0_1.index t (2 : Fin 3) * 512 + 1 * k.val = k.val; omega

end Cert.KernelIdeal.Blocks

end
-- ==== Proof.Accum.lean ====
/-
  The accumulation: what the output's staging buffer holds after each grid point.

  The eight points `t = 8g, …, 8g + 7` of one output block `g = t / 8` visit the sources `0, …, 7` in order, and the block
  stays in its buffer between them. The point of source 0 overwrites the block with its own product; every later
  point adds its product to what the point before left. So after point `t` entry `(e, p, q)` of the buffer holds the
  partial sum over the sources seen so far,

      Σ_{s ≤ t % 8}  Σ_k a[s, (t / 32)·2048 + e·1024 + p, k] · b[s, (t / 8 % 4)·1024 + q, k],

  by induction on the point: stepping from `t` to `t + 1` inside a block changes neither `t / 32` nor `t / 8 % 4` and
  raises `t % 8` by one, which appends one term to the sum.
-/
import proofs.«178823_j68925635166437_2_alg».proof.Proof.Cases
import proofs.«178823_j68925635166437_2_alg».proof.Proof.Blocks

noncomputable section

namespace Cert.KernelIdeal.Accum

open Cert.KernelIdeal Cert.KernelIdeal.Gen Cert.GemmSpec Cert.KernelIdeal.Cases Cert.KernelIdeal.Blocks
open Idealize.ShloMosaic Idealize.ShloMosaic.ValueIdx Idealize.ShloMosaic.TcCoe Idealize.SL.Sem

variable (m : (ℓ : Loc nD τ sig) → Buf (Elt Ideal) ℓ)

/-- The product point `t` contributes to entry `(e, p, q)`, read off its two input blocks, is source `t % 8`'s term of
    the result at the token row and weight row the entry stands for. -/
theorem step_eq (c : Dev nD) (t : Fin cfg0.N) (e : Fin 2) (p q : Fin 1024) :
    ∑ k : Fin 512, tokBlk m c t (ix3 (0 : Fin 1) (trow e p) k) * wBlk m c t (ix3 (0 : Fin 1) q k)
      = term (argA m c) (argB m c) (t.val % 8) (t.val / 32 * 2048 + (e.val * 1024 + p.val)) (t.val / 8 % 4 * 1024 + q.val) := by
  unfold term
  exact Finset.sum_congr rfl fun k _ => congrArg₂ (· * ·) (tokens_apply m c t (trow e p) k) (weights_apply m c t q k)

/-- At a source-0 point the buffer ends at that point's product alone. -/
theorem at_first (c : Dev nD) (t : Fin cfg0.N) (h0 : t.val % 8 = 0) (e : Fin 2) (p q : Fin 1024) :
    outsAt0 m c t.val t.isLt (ix3 e p q)
      = term (argA m c) (argB m c) (t.val % 8) (t.val / 32 * 2048 + (e.val * 1024 + p.val)) (t.val / 8 % 4 * 1024 + q.val) :=
  (congrFun (outsAt0_A m c t h0) (ix3 e p q)).trans
    ((out_A_apply c (grid0.coords t) (ms0_0 t) (hs0_0 t) (ms0_1 t) (hs0_1 t) (ms0_2 t) (hs0_2 t) ((hcond0_0 t).mpr h0)
      (tokBlk m c t) (wBlk m c t) e p q).trans (step_eq m c t e p q))

/-- At a later point it ends at what the point before left plus this point's product. -/
theorem at_later (c : Dev nD) (t : Fin cfg0.N) (h0 : ¬t.val % 8 = 0) (e : Fin 2) (p q : Fin 1024) :
    outsAt0 m c t.val t.isLt (ix3 e p q)
      = outsAt0 m c (t.val - 1) (Nat.lt_of_le_of_lt (Nat.sub_le _ _) t.isLt) (ix3 e p q)
        + term (argA m c) (argB m c) (t.val % 8) (t.val / 32 * 2048 + (e.val * 1024 + p.val)) (t.val / 8 % 4 * 1024 + q.val) :=
  (congrFun (outsAt0_B m c t h0) (ix3 e p q)).trans
    ((out_B_apply c (grid0.coords t) (ms0_0 t) (hs0_0 t) (ms0_1 t) (hs0_1 t) (ms0_2 t) (hs0_2 t)
      (fun h => h0 ((hcond0_0 t).mp h)) (tokBlk m c t) (wBlk m c t)
      (outsAt0 m c (t.val - 1) (Nat.lt_of_le_of_lt (Nat.sub_le _ _) t.isLt)) e p q).trans
      (congrArg (outsAt0 m c (t.val - 1) (Nat.lt_of_le_of_lt (Nat.sub_le _ _) t.isLt) (ix3 e p q) + ·) (step_eq m c t e p q)))

/-- A sum over the one source `0`. -/
theorem sum_first (f : ℕ → EReal) : ∑ s ∈ Finset.range (0 + 1), f s = f 0 := by
  rw [Finset.sum_range_succ, Finset.sum_range_zero, zero_add]

/-- THE PARTIAL SUMS: after point `n` entry `(e, p, q)` holds the terms of the sources `0, …, n % 8`. -/
theorem outsAt_apply (c : Dev nD) : ∀ (n : ℕ) (h : n < cfg0.N) (e : Fin 2) (p q : Fin 1024),
    outsAt0 m c n h (ix3 e p q)
      = ∑ s ∈ Finset.range (n % 8 + 1),
          term (argA m c) (argB m c) s (n / 32 * 2048 + (e.val * 1024 + p.val)) (n / 8 % 4 * 1024 + q.val) := by
  intro n
  induction n with
  | zero =>
    intro h e p q
    refine (at_first m c ⟨0, h⟩ rfl e p q).trans ?_
    exact (sum_first (fun s => term (argA m c) (argB m c) s (0 / 32 * 2048 + (e.val * 1024 + p.val))
      (0 / 8 % 4 * 1024 + q.val))).symm
  | succ n ih =>
    intro h e p q
    by_cases h0 : (n + 1) % 8 = 0
    · refine (at_first m c ⟨n + 1, h⟩ h0 e p q).trans ?_
      show term (argA m c) (argB m c) ((n + 1) % 8) ((n + 1) / 32 * 2048 + (e.val * 1024 + p.val)) ((n + 1) / 8 % 4 * 1024 + q.val)
        = ∑ s ∈ Finset.range ((n + 1) % 8 + 1),
            term (argA m c) (argB m c) s ((n + 1) / 32 * 2048 + (e.val * 1024 + p.val)) ((n + 1) / 8 % 4 * 1024 + q.val)
      rw [h0]
      exact (sum_first (fun s => term (argA m c) (argB m c) s ((n + 1) / 32 * 2048 + (e.val * 1024 + p.val))
        ((n + 1) / 8 % 4 * 1024 + q.val))).symm
    · refine (at_later m c ⟨n + 1, h⟩ h0 e p q).trans ?_
      have e8 : (n + 1) % 8 = n % 8 + 1 := by omega
      have e32 : (n + 1) / 32 = n / 32 := by omega
      have e4 : (n + 1) / 8 % 4 = n / 8 % 4 := by omega
      show outsAt0 m c n (Nat.lt_of_succ_lt h) (ix3 e p q)
          + term (argA m c) (argB m c) ((n + 1) % 8) ((n + 1) / 32 * 2048 + (e.val * 1024 + p.val)) ((n + 1) / 8 % 4 * 1024 + q.val)
        = ∑ s ∈ Finset.range ((n + 1) % 8 + 1),
            term (argA m c) (argB m c) s ((n + 1) / 32 * 2048 + (e.val * 1024 + p.val)) ((n + 1) / 8 % 4 * 1024 + q.val)
      rw [e8, e32, e4, Finset.sum_range_succ, ih (Nat.lt_of_succ_lt h) e p q]

end Cert.KernelIdeal.Accum

end
-- ==== Proof.Final.lean ====
/-
  From the buffer to the result array.

  Output block `g = t / 8` is written back once, after its last source (the points with `t % 8 = 7`). By then the buffer
  holds the full sum over the eight sources, and entry `(e, p, q)` of block `(dst2, 0, n) = (t / 32, 0, t / 8 % 4)`
  lands at `out[2·dst2 + e, p, n·1024 + q]`, where

      (2·dst2 + e)·1024 + p  =  dst2·2048 + e·1024 + p

  is the token row the buffer's entry was accumulated for: the write-back is the block of the specified function.
  The sixteen blocks tile the array — `out[d, r, j]` lies in the block of `dst2 = d / 2`, `n = j / 1024`, written back at
  point `((d / 2)·4 + j / 1024)·8 + 7` — so the array ends holding the specified function everywhere.
-/
import proofs.«178823_j68925635166437_2_alg».proof.Proof.Accum
import proofs.«178823_j68925635166437_2_alg».proof.Proof.Gen.KernelIdeal.Value

noncomputable section

namespace Cert.KernelIdeal.Final

open Cert.KernelIdeal Cert.KernelIdeal.Gen Cert.GemmSpec Cert.KernelIdeal.Cases Cert.KernelIdeal.Blocks
open Cert.KernelIdeal.Accum
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The specified function at an index whose coordinates are known as numbers. -/
theorem G_apply (a : (⟨3, ![8, 8192, 512]⟩ : Shape).Idx → EReal) (b : (⟨3, ![8, 4096, 512]⟩ : Shape).Idx → EReal)
    (i : (⟨3, ![8, 1024, 4096]⟩ : Shape).Idx) {d r j : Nat}
    (h0 : (i 0).val = d) (h1 : (i 1).val = r) (h2 : (i 2).val = j) :
    G a b i = ∑ s : Fin 8, term a b s.val (d * 1024 + r) j := by
  subst h0 h1 h2
  rfl

/-- WHAT A WRITE-BACK WRITES: at a point with `t % 8 = 7` the buffer, read through the block, is that block of the
    specified function of the two arguments. -/
theorem flushed_eq (c : Dev nD) (t : Fin cfg0.N) (hf : (cfg0.win 2).flush t = true) :
    (dats m 0 c).flushed 2 t = ((cfg0.win 2).blk t).view.read (Elt Ideal) (G (argA m c) (argB m c)) := by
  have h7 : t.val % 8 = 7 := (flush0_2 t).mp hf
  obtain ⟨-, -, -, -, -, -, e0, e1, e2⟩ := idx_facts t
  rw [Value.flushed2]
  funext y
  obtain ⟨e, p, q, rfl⟩ : ∃ (e : Fin 2) (p q : Fin 1024), y = ix3 e p q := ⟨y 0, y 1, y 2, eq_ix3 y⟩
  show outsAt0 m c t.val t.isLt (ix3 e p q)
    = G (argA m c) (argB m c) (((cfg0.win 2).blk t).view.emb (ix3 e p q))
  refine (outsAt_apply m c t.val t.isLt e p q).trans ?_
  refine ((G_apply (argA m c) (argB m c) _ (d := t.val / 32 * 2 + e.val) (r := p.val)
    (j := t.val / 8 % 4 * 1024 + q.val) ?_ ?_ ?_).trans ?_).symm
  · show win0_2.index t (0 : Fin 3) * 2 + 1 * e.val = t.val / 32 * 2 + e.val; omega
  · show win0_2.index t (1 : Fin 3) * 1024 + 1 * p.val = p.val; omega
  · show win0_2.index t (2 : Fin 3) * 1024 + 1 * q.val = t.val / 8 % 4 * 1024 + q.val; omega
  · rw [h7, Finset.sum_range]
    refine Finset.sum_congr rfl fun s _ => ?_
    have hr : (t.val / 32 * 2 + e.val) * 1024 + p.val = t.val / 32 * 2048 + (e.val * 1024 + p.val) := by omega
    rw [hr]

/-- THE BLOCKS TILE THE ARRAY: every index is in the block some write-back writes. -/
theorem covered (i : S8x1024x4096.Idx) :
    ∃ t : Fin cfg0.N, (cfg0.win 2).flush t = true ∧ i ∈ ((cfg0.win 2).blk t).view.set := by
  have h0 : (i 0).val < 8 := (i 0).isLt
  have h1 : (i 1).val < 1024 := (i 1).isLt
  have h2 : (i 2).val < 4096 := (i 2).isLt
  have hN : cfg0.N = 128 := N_0
  obtain ⟨t, ht⟩ : ∃ t : Fin cfg0.N, t.val = ((i 0).val / 2 * 4 + (i 2).val / 1024) * 8 + 7 :=
    ⟨⟨((i 0).val / 2 * 4 + (i 2).val / 1024) * 8 + 7, by rw [hN]; omega⟩, rfl⟩
  obtain ⟨-, -, -, -, -, -, e0, e1, e2⟩ := idx_facts t
  refine ⟨t, (flush0_2 t).mpr (by omega), ?_⟩
  show i ∈ ((View.whole main_v2).slice (win0_2.rect t)).set
  rw [View.set_slice_whole, Rect.mem_set_unit]
  intro a
  match a with
  | ⟨0, _⟩ =>
    show win0_2.index t (0 : Fin 3) * 2 ≤ (i 0).val ∧ (i 0).val < win0_2.index t (0 : Fin 3) * 2 + 2
    omega
  | ⟨1, _⟩ =>
    show win0_2.index t (1 : Fin 3) * 1024 ≤ (i 1).val ∧ (i 1).val < win0_2.index t (1 : Fin 3) * 1024 + 1024
    omega
  | ⟨2, _⟩ =>
    show win0_2.index t (2 : Fin 3) * 1024 ≤ (i 2).val ∧ (i 2).val < win0_2.index t (2 : Fin 3) * 1024 + 1024
    omega

/-- THE RESULT ARRAY after the run is the specified function of the two arguments. -/
theorem final (c : Dev nD) : (dats m 0 c).arrAt 2 cfg0.N = G (argA m c) (argB m c) :=
  (dats m 0 c).arrAt_eq_of_cover 2 (G (argA m c) (argB m c)) (flushed_eq m c) covered

/-- THE KERNEL'S RUN: every weakly fair execution terminates with the result array at the specified function of the
    arguments as launched, and the arguments unchanged. -/
theorem run : θ_run defs (onTc (τ := τ) (main (F := Ideal))) ⟨m, fun _ => 0, ρ⟩ fun r => ∀ c : Dev nD,
      r.2.mem ((c : Thread nD τ).loc main_v2) = G (argA m c) (argB m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Final

end
-- ==== Proof.RefValue.lean ====
/-
  The reference computes the same function.

  It multiplies per source, `partial[s, row, j] = Σ_k a[s, row, k] · b[s, j, k]` over all 8192 token rows, views the
  rows as `(destination, row within the destination's chunk)` — a row-major reshape, so `(s, d, r, j)` reads
  `partial[s, d·1024 + r, j]` — and sums over the source axis from zero:

      out[d, r, j] = 0 + Σ_s partial[s, d·1024 + r, j] = Σ_s Σ_k a[s, d·1024 + r, k] · b[s, j, k].
-/
import proofs.«178823_j68925635166437_2_alg».proof.Proof.Gen.ReferenceIdeal.Read
import proofs.«178823_j68925635166437_2_alg».proof.Proof.Spec

noncomputable section

namespace Cert.ReferenceIdeal.RefValue

open Cert.ReferenceIdeal Cert.ReferenceIdeal.Gen Cert.ReferenceIdeal.Read Cert.GemmSpec
open Idealize.ShloMosaic Idealize.ShloMosaic.ValueIdx

/-- THE REFERENCE'S RESULT is the specified function of its two arguments, entry by entry. -/
theorem ref_eq (a : (⟨S8x8192x512, .f32⟩ : BufTy).Contents (Elt Ideal)) (b : (⟨S8x4096x512, .f32⟩ : BufTy).Contents (Elt Ideal)) :
    val_main_v2 (F := Ideal) a b = G a b := by
  funext i
  have h0 : (i 0).val < 8 := (i 0).isLt
  have h1 : (i 1).val < 1024 := (i 1).isLt
  have h2 : (i 2).val < 4096 := (i 2).isLt
  rw [val_main_v2_apply, val_main_cst_apply]
  show Ideal.ofBits .f32 0x00000000#32 + _ = _
  rw [Ideal.ofBits_zero_f32, zero_add]
  unfold G
  refine Finset.sum_congr rfl fun s _ => ?_
  have hs : s.val < 8 := s.isLt
  rw [val_main_v1_apply, val_main_v0_apply]
  unfold term
  refine Finset.sum_congr rfl fun k _ => ?_
  refine congrArg₂ (· * ·) (rd3_of_val a _ ?_ ?_ rfl) (rd3_of_val b _ ?_ ?_ rfl)
  · show (((s.val * 8 + (i 0).val) * 1024 + (i 1).val) * 4096 + (i 2).val) / 33554432 = s.val
    omega
  · show (((s.val * 8 + (i 0).val) * 1024 + (i 1).val) * 4096 + (i 2).val) / 4096 % 8192 = (i 0).val * 1024 + (i 1).val
    omega
  · show (((s.val * 8 + (i 0).val) * 1024 + (i 1).val) * 4096 + (i 2).val) / 33554432 = s.val
    omega
  · show (((s.val * 8 + (i 0).val) * 1024 + (i 1).val) * 4096 + (i 2).val) % 4096 = (i 2).val
    omega

end Cert.ReferenceIdeal.RefValue

end
-- ==== Proof.lean ====
/-
  A reduce-scatter matrix product: the kernel and its reference compute one function.

  Inputs `a : f32[8, 8192, 512]` (eight source shards of the tokens) and `b : f32[8, 4096, 512]` (eight source shards
  of the weights); result `out : f32[8, 1024, 4096]`,

      out[d, r, j] = Σ_{s < 8} Σ_{k < 512} a[s, d·1024 + r, k] · b[s, j, k]          (Proof/Spec.lean, `G`).

  THE KERNEL tiles the result into sixteen `[2, 1024, 1024]` blocks (a pair of destinations × a tile of 1024 output
  columns) and, for each block, walks the eight sources innermost: the first source overwrites the block with its
  product, each later one adds its product (Proof/Payload.lean: one plane store at an entry; Proof/Cases.lean: what one
  run of the body leaves; Proof/Blocks.lean: what the input blocks hold; Proof/Accum.lean: the partial sums, by
  induction on the grid point). The block is written back after its eighth source, when it holds the whole sum, and
  the sixteen blocks tile the array (Proof/Final.lean).
  THE REFERENCE multiplies per source over all token rows, reshapes the rows into (destination, row) and sums over the
  sources from zero (Proof/RefValue.lean).

  Over the extended reals the casts to bf16 are the identity, the matrix unit's product into a zero accumulator and
  the host's contraction are both the plain sum of products, and the two programs group the SAME terms differently —
  `(((t₀) + t₁) + …) + t₇` against `0 + Σ_s t_s` — which addition's associativity and the neutral zero make equal. No
  distributive law is used, so the inputs' finiteness is never opened.
  The idealized kernel is the kernel's own text read over the extended reals — no operation was rewritten — so the
  claim that it is the kernel's sanctioned idealization has no conjunct to prove.
-/
import proofs.«178823_j68925635166437_2_alg».proof.Defs
import proofs.«178823_j68925635166437_2_alg».proof.Proof.Gen.Kernel
import proofs.«178823_j68925635166437_2_alg».proof.Proof.Gen.Kernel.Skeleton
import proofs.«178823_j68925635166437_2_alg».proof.Proof.Gen.Kernel.Launch
import proofs.«178823_j68925635166437_2_alg».proof.Proof.Gen.Kernel.Points
import proofs.«178823_j68925635166437_2_alg».proof.Proof.Gen.Kernel.Frame
import proofs.«178823_j68925635166437_2_alg».proof.Proof.Gen.KernelIdeal
import proofs.«178823_j68925635166437_2_alg».proof.Proof.Gen.KernelIdeal.Skeleton
import proofs.«178823_j68925635166437_2_alg».proof.Proof.Gen.KernelIdeal.Launch
import proofs.«178823_j68925635166437_2_alg».proof.Proof.Gen.KernelIdeal.Points
import proofs.«178823_j68925635166437_2_alg».proof.Proof.Gen.KernelIdeal.Frame
import proofs.«178823_j68925635166437_2_alg».proof.Proof.Gen.ReferenceIdeal
import proofs.«178823_j68925635166437_2_alg».proof.Proof.Gen.Pre_finite_inputs
import proofs.«178823_j68925635166437_2_alg».proof.Proof.Gen.KernelIdeal.Value
import proofs.«178823_j68925635166437_2_alg».proof.Proof.Gen.ReferenceIdeal.Run
import proofs.«178823_j68925635166437_2_alg».proof.Proof.Gen.ReferenceIdeal.Read
import proofs.«178823_j68925635166437_2_alg».proof.Proof.Final
import proofs.«178823_j68925635166437_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of four host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the two arguments, both programs end with the result array at
    `out[d, r, j] = Σ_s Σ_k a[s, d·1024 + r, k] · b[s, j, k]` of those arguments. -/
theorem algebraic : Cert.algebraic_KernelIdeal_ReferenceIdeal := by
  intro m ρ m' ρ' _ hagree
  refine ⟨fun c => Cert.GemmSpec.G (Cert.KernelIdeal.Blocks.argA m c) (Cert.KernelIdeal.Blocks.argB m c),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
